-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S_ : Shape := ⟨0, ![]⟩
abbrev S4096x1 : Shape := ⟨2, ![4096, 1]⟩
abbrev S8192 : Shape := ⟨1, ![8192]⟩
abbrev S8192x1 : Shape := ⟨2, ![8192, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 83
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .i1⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .i1⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S8192x4096, .f32⟩
  | .hbm, ⟨63, _⟩ => ⟨S8192x4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S4096x4096, .f32⟩
  | .hbm, ⟨73, _⟩ => ⟨S4096x4096, .f32⟩
  | .hbm, ⟨74, _⟩ => ⟨S4096x4096, .bf16⟩
  | .hbm, ⟨75, _⟩ => ⟨S8192x4096, .f32⟩
  | .hbm, ⟨76, _⟩ => ⟨S8192x4096, .f32⟩
  | .hbm, ⟨77, _⟩ => ⟨S8192x4096, .f32⟩
  | .hbm, ⟨78, _⟩ => ⟨S8192x4096, .f32⟩
  | .hbm, ⟨79, _⟩ => ⟨S8192x4096, .bf16⟩
  | .hbm, ⟨80, _⟩ => ⟨S1x4096, .f32⟩
  | .hbm, ⟨81, _⟩ => ⟨S8192x4096, .f32⟩
  | .hbm, ⟨82, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_v18 : Ref sig .tc := ⟨.hbm, 37, rfl⟩
abbrev main_v19 : Ref sig .tc := ⟨.hbm, 38, rfl⟩
abbrev main_cst_8 : Ref sig .tc := ⟨.hbm, 39, rfl⟩
abbrev main_v20 : Ref sig .tc := ⟨.hbm, 40, rfl⟩
abbrev main_v21 : Ref sig .tc := ⟨.hbm, 41, rfl⟩
abbrev main_cst_9 : Ref sig .tc := ⟨.hbm, 42, rfl⟩
abbrev main_call3_v0 : Ref sig .tc := ⟨.hbm, 43, rfl⟩
abbrev main_call3_v1 : Ref sig .tc := ⟨.hbm, 44, rfl⟩
abbrev main_v22 : Ref sig .tc := ⟨.hbm, 45, rfl⟩
abbrev main_v23 : Ref sig .tc := ⟨.hbm, 46, rfl⟩
abbrev main_cst_10 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_11 : Ref sig .tc := ⟨.hbm, 51, rfl⟩
abbrev main_cst_12 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_13 : Ref sig .tc := ⟨.hbm, 64, rfl⟩
abbrev main_cst_14 : Ref sig .tc := ⟨.hbm, 65, rfl⟩
abbrev main_call7_v0 : Ref sig .tc := ⟨.hbm, 66, rfl⟩
abbrev main_call7_v1 : Ref sig .tc := ⟨.hbm, 67, rfl⟩
abbrev main_call7_v2 : Ref sig .tc := ⟨.hbm, 68, rfl⟩
abbrev main_call7_v3 : Ref sig .tc := ⟨.hbm, 69, rfl⟩
abbrev main_call7_v4 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v41) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S_ : Shape := ⟨0, ![]⟩
abbrev S4096x1 : Shape := ⟨2, ![4096, 1]⟩
abbrev S8192 : Shape := ⟨1, ![8192]⟩
abbrev S8192x1 : Shape := ⟨2, ![8192, 1]⟩
abbrev S1x4096 : Shape := ⟨2, ![1, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .i1⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .i1⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S8192x4096, .f32⟩
  | .hbm, ⟨63, _⟩ => ⟨S8192x4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S4096x4096, .f32⟩
  | .hbm, ⟨73, _⟩ => ⟨S4096x4096, .f32⟩
  | .hbm, ⟨74, _⟩ => ⟨S8192x4096, .f32⟩
  | .hbm, ⟨75, _⟩ => ⟨S8192x4096, .f32⟩
  | .hbm, ⟨76, _⟩ => ⟨S8192x4096, .f32⟩
  | .hbm, ⟨77, _⟩ => ⟨S8192x4096, .f32⟩
  | .hbm, ⟨78, _⟩ => ⟨S8192x4096, .f32⟩
  | .hbm, ⟨79, _⟩ => ⟨S1x4096, .f32⟩
  | .hbm, ⟨80, _⟩ => ⟨S8192x4096, .f32⟩
  | .hbm, ⟨81, _⟩ => ⟨S8192x4096, .f32⟩
  | .hbm, ⟨82, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_v18 : Ref sig .tc := ⟨.hbm, 37, rfl⟩
abbrev main_v19 : Ref sig .tc := ⟨.hbm, 38, rfl⟩
abbrev main_cst_8 : Ref sig .tc := ⟨.hbm, 39, rfl⟩
abbrev main_v20 : Ref sig .tc := ⟨.hbm, 40, rfl⟩
abbrev main_v21 : Ref sig .tc := ⟨.hbm, 41, rfl⟩
abbrev main_cst_9 : Ref sig .tc := ⟨.hbm, 42, rfl⟩
abbrev main_call3_v0 : Ref sig .tc := ⟨.hbm, 43, rfl⟩
abbrev main_call3_v1 : Ref sig .tc := ⟨.hbm, 44, rfl⟩
abbrev main_v22 : Ref sig .tc := ⟨.hbm, 45, rfl⟩
abbrev main_v23 : Ref sig .tc := ⟨.hbm, 46, rfl⟩
abbrev main_cst_10 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_11 : Ref sig .tc := ⟨.hbm, 51, rfl⟩
abbrev main_cst_12 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_13 : Ref sig .tc := ⟨.hbm, 64, rfl⟩
abbrev main_cst_14 : Ref sig .tc := ⟨.hbm, 65, rfl⟩
abbrev main_call7_v0 : Ref sig .tc := ⟨.hbm, 66, rfl⟩
abbrev main_call7_v1 : Ref sig .tc := ⟨.hbm, 67, rfl⟩
abbrev main_call7_v2 : Ref sig .tc := ⟨.hbm, 68, rfl⟩
abbrev main_call7_v3 : Ref sig .tc := ⟨.hbm, 69, rfl⟩
abbrev main_call7_v4 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩

abbrev nD : Nat := 1
abbrev τ : Topo := Topo.v7x

variable {F : FTy → Type} [FloatOps F]

class Facts₀ : Prop where
  shapeCasts_S4x2048x4096_S8192x4096 : S4x2048x4096.ShapeCasts S8192x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.CaseValues.lean ====
/-
  What one grid point of the blocked matrix product leaves behind, case by case.

  The kernel walks a grid (i, j, k). At every point it adds the product of the (i, k) block of the left operand with
  the transposed (j, k) block of the right operand into a running accumulator. At k = 0 the accumulator is first
  set to zero; at the last k the accumulator plus the (0, j) block of the bias row is written to the output block.
  So there are three kinds of point:
    first   (k = 0)         accumulator := 0 + x · wᵀ
    middle  (0 < k < last)  accumulator := accumulator + x · wᵀ
    last    (k = last)      accumulator := accumulator + x · wᵀ, output := accumulator + bias row
  Each statement below says that what the point leaves is exactly that arithmetic applied to the blocks it read
  (the accumulator's earlier contents, the two operand blocks, the bias block), for any float instance.
-/
import proofs.«129929_j20203526161177_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- The offsets (0, 0) are the zero offsets: every access of the body reads or writes a whole block. -/
theorem zero_offsets : (![0, 0] : Fin 2 → Nat) = fun _ => 0 := funext fun a => by fin_cases a <;> rfl

/-- A middle point: the accumulator ends at its earlier contents plus the product of the two operand blocks. -/
theorem acc_middle (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero zero_offsets]
  simp only [View.readAt_eq_ld, h3.read_unread, h4.read_unread, h7.read_unread,
    View.ld_unit_zero (S := S1024x1024) zero_offsets]

/-- A first point: the accumulator is zeroed, read back, and ends at zero plus the product of the two operand blocks. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) zero_offsets,
    View.readCov_unit_zero (S := S1024x1024) _ zero_offsets]
  simp only [View.readAt_eq_ld, h3.read_unread, h4.read_unread, View.ld_unit_zero (S := S1024x1024) zero_offsets]

/-- A last point: the accumulator is updated as at a middle point. -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero zero_offsets]
  simp only [View.readAt_eq_ld, h3.read_unread, h4.read_unread, h7.read_unread,
    View.ld_unit_zero (S := S1024x1024) zero_offsets]

/-- A last point: the output block is the updated accumulator plus the bias block broadcast down the rows. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero zero_offsets, View.readCov_unit_zero (S := S1024x1024) _ zero_offsets]
  simp only [View.readAt_eq_ld, h3.read_unread, h4.read_unread, h5.read_unread, h7.read_unread,
    View.ld_unit_zero (S := S1024x1024) zero_offsets, View.ld_unit_zero (S := S1x1024) zero_offsets]

end Cert.KernelIdeal.CaseValues

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.BlockedProduct.lean ====
/-
  A dense layer x · wᵀ + b on the extended reals, with its contraction axis cut into four equal chunks.

  For x : [8192, 4096], w : [4096, 4096] and a bias row b : [1, 4096], entry (r, j) of the layer is
      (∑ k < 4096, x (r, k) · w (j, k)) + b (0, j).
  Cutting the 4096 contraction positions into the chunks s = 0, 1, 2, 3 of 1024 consecutive positions each, the sum
  is the sum of its four chunk sums. Finite sums on the extended reals are sums in a commutative monoid (addition is
  commutative and associative, infinities included), so this regrouping asks nothing of the entries.

  Rows, columns and contraction positions are addressed by a block number and a position inside the block; the
  block number is a natural number and the address is reduced modulo the axis length, so that the address is
  defined for every block number and is the plain one, block · 1024 + position, whenever that is in range.
-/
import proofs.«129929_j20203526161177_1_alg».proof.Proof.LibDotNT
import proofs.«129929_j20203526161177_1_alg».proof.Proof.LibSumBlocks

noncomputable section

namespace Cert.BlockedProduct

open Idealize.ShloMosaic Idealize.ShloMosaic.ValueIdx

/-- The left operand's shape [8192, 4096], the right operand's [4096, 4096], the bias row's [1, 4096]. -/
abbrev SX : Shape := ⟨2, ![8192, 4096]⟩
abbrev SW : Shape := ⟨2, ![4096, 4096]⟩
abbrev SB : Shape := ⟨2, ![1, 4096]⟩

/-- Row `p` of row block `b` of an 8192-row array: `b · 1024 + p`. -/
def rowAt (b : ℕ) (p : Fin 1024) : Fin 8192 := ⟨(b * 1024 + p.val) % 8192, Nat.mod_lt _ (by norm_num)⟩

/-- Position `q` of block `b` of a 4096-long axis: `b · 1024 + q`. -/
def posAt (b : ℕ) (q : Fin 1024) : Fin 4096 := ⟨(b * 1024 + q.val) % 4096, Nat.mod_lt _ (by norm_num)⟩

theorem rowAt_val (b : ℕ) (p : Fin 1024) : (rowAt b p).val = (b * 1024 + p.val) % 8192 := rfl
theorem posAt_val (b : ℕ) (q : Fin 1024) : (posAt b q).val = (b * 1024 + q.val) % 4096 := rfl

/-- The layer: row r of x against row j of w, plus the bias of column j. -/
def layer (x : SX.Idx → EReal) (w : SW.Idx → EReal) (b : SB.Idx → EReal) : SX.Idx → EReal :=
  fun i => (∑ k : Fin 4096, x (ix2 (i 0) k) * w (ix2 (i 1) k)) + b (ix2 (0 : Fin 1) (i 1))

/-- Chunk `s` of the row-against-row sum: the 1024 contraction positions of block `s`. -/
def chunk (x : SX.Idx → EReal) (w : SW.Idx → EReal) (r : Fin 8192) (j : Fin 4096) (s : ℕ) : EReal :=
  ∑ y : Fin 1024, x (ix2 r (posAt s y)) * w (ix2 j (posAt s y))

/-- The four chunk sums add up to the whole row-against-row sum. -/
theorem sum_chunks (x : SX.Idx → EReal) (w : SW.Idx → EReal) (r : Fin 8192) (j : Fin 4096) :
    ∑ s ∈ Finset.range 4, chunk x w r j s = ∑ k : Fin 4096, x (ix2 r k) * w (ix2 j k) := by
  rw [Cert.SumBlocks.sum_fin_blocks 4 1024 (by norm_num) (fun k : Fin 4096 => x (ix2 r k) * w (ix2 j k)),
    Finset.sum_range]
  refine Finset.sum_congr rfl fun s _ => Finset.sum_congr rfl fun y _ => ?_
  have e : posAt s.val y = ⟨s.val * 1024 + y.val, (by norm_num : (4096 : ℕ) = 4 * 1024) ▸ Cert.SumBlocks.block_lt s y⟩ :=
    Fin.ext (by
      rw [posAt_val]
      have hs := s.isLt
      have hy := y.isLt
      exact Nat.mod_eq_of_lt (by omega))
  rw [e]

end Cert.BlockedProduct

end
-- ==== Proof.KernelBlocks.lean ====
/-
  The blocked matrix product, point by point, at the ideal values.

  The grid is (i, j, k) with 8 · 4 · 4 = 128 points, visited in row-major order: point number t has
  i = t / 16, j = t / 4 mod 4, k = t mod 4. At point t the kernel reads block (i, k) of the left operand x
  (rows i·1024 …, contraction positions k·1024 …), block (j, k) of the right operand w, and block (0, j) of the
  bias row b; block (i, j) of the output is written once, after the point with k = 3.

  At the ideal values (extended reals, exact operations):
    * the step "accumulator + x-block · w-blockᵀ" adds, at entry (p, q) of the block, chunk k of the
      row-against-row sum of row i·1024 + p of x and row j·1024 + q of w;
    * so after point t the accumulator holds the chunks 0 … k added up (by induction on the point: a point with k = 0
      starts from zero, any other continues from the point before, which has the same i and j);
    * so at k = 3 the output block holds all four chunks plus the bias entry of column j·1024 + q, which is the
      dense layer x · wᵀ + b at (i·1024 + p, j·1024 + q);
    * the 32 output blocks tile the output array, so the array ends holding the layer everywhere.
-/
import proofs.«129929_j20203526161177_1_alg».proof.Proof.Gen.KernelIdeal.Frame
import proofs.«129929_j20203526161177_1_alg».proof.Proof.CaseValues
import proofs.«129929_j20203526161177_1_alg».proof.Proof.BlockedProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.BlockedProduct

/-! ## The body's arithmetic at one entry of a block -/

/-- The block the accumulator is reset to is zero everywhere. -/
theorem zero_block_apply (idx : S1024x1024.Idx) : k0_pay1 (F := Ideal) idx = 0 := by
  unfold k0_pay1
  simp only [shapeCast_self]
  show Ideal.ofBits .f32 0x00000000#32 = 0
  exact Ideal.ofBits_zero_f32

/-- The accumulating step at entry (p, q): the accumulator's entry plus row p of the x-block against row q of the
    w-block. -/
theorem step_apply (acc : Vec Ideal S1024x1024 .f32) (x0 x1 : Vec Ideal S1024x1024 .bf16) (idx : S1024x1024.Idx) :
    k0_pay2 (F := Ideal) acc x0 x1 idx = acc idx + ∑ y : Fin 1024, x0 (ix2 (idx 0) y) * x1 (ix2 (idx 1) y) := by
  unfold k0_pay2
  simp only [shapeCast_self]
  show acc idx + _ = acc idx + _
  exact congrArg (acc idx + ·) (Cert.LibDotNT.matmul_tr (M := 1024) (K := 1024) (N := 1024) x0 x1 idx)

/-- The closing step at entry (p, q): the accumulator's entry plus entry q of the bias block. -/
theorem bias_apply (acc : Vec Ideal S1024x1024 .f32) (b : Vec Ideal S1x1024 .f32) (idx : S1024x1024.Idx) :
    k0_pay3 (F := Ideal) acc b idx = acc idx + b (ix2 (0 : Fin 1) (idx 1)) := by
  unfold k0_pay3
  simp only [shapeCast_self]
  show acc idx + _ = acc idx + _
  refine congrArg (acc idx + ·) (broadcastTo_apply b _ idx (ix2 (0 : Fin 1) (idx 1)) (fun a => ?_))
  match a with
  | ⟨0, _⟩ => rfl
  | ⟨1, _⟩ => rfl

/-! ## The blocks a point reads -/

/-- The block numbers of the four windows at point t: (i, k), (j, k), (0, j), (i, j) with i = t / 16,
    j = t / 4 mod 4, k = t mod 4. -/
theorem block_numbers : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem point_lt (t : Fin cfg0.N) : t.val < 128 := lt_of_lt_of_eq t.isLt (show cfg0.N = 128 from N_0)

/-- A block of an [8192, 4096] array read through the x-window at point t: entry (p, y) is the array at row
    i·1024 + p, position k·1024 + y. -/
theorem read_xblock (A : SX.Idx → EReal) (t : Fin cfg0.N) (y : S1024x1024.Idx) :
    ((cfg0.win 0).blk t).view.read (Elt Ideal) A y = A (ix2 (rowAt (t.val / 16) (y 0)) (posAt (t.val % 4) (y 1))) := by
  obtain ⟨e0, e1, -⟩ := block_numbers t
  have hN := point_lt t
  have hy0 : (y 0).val < 1024 := (y 0).isLt
  have hy1 : (y 1).val < 1024 := (y 1).isLt
  rw [View.read_apply]
  refine congrArg A (funext fun a => Fin.ext ?_)
  match a with
  | ⟨0, _⟩ =>
    show win0_0.index t (0 : Fin 2) * 1024 + 1 * (y 0).val = (t.val / 16 * 1024 + (y 0).val) % 8192
    rw [e0]; omega
  | ⟨1, _⟩ =>
    show win0_0.index t (1 : Fin 2) * 1024 + 1 * (y 1).val = (t.val % 4 * 1024 + (y 1).val) % 4096
    rw [e1]; omega

/-- A block of a [4096, 4096] array read through the w-window at point t: entry (q, y) is the array at row
    j·1024 + q, position k·1024 + y. -/
theorem read_wblock (A : SW.Idx → EReal) (t : Fin cfg0.N) (y : S1024x1024.Idx) :
    ((cfg0.win 1).blk t).view.read (Elt Ideal) A y
      = A (ix2 (posAt (t.val / 4 % 4) (y 0)) (posAt (t.val % 4) (y 1))) := by
  obtain ⟨-, -, e0, e1, -⟩ := block_numbers t
  have hN := point_lt t
  have hy0 : (y 0).val < 1024 := (y 0).isLt
  have hy1 : (y 1).val < 1024 := (y 1).isLt
  rw [View.read_apply]
  refine congrArg A (funext fun a => Fin.ext ?_)
  match a with
  | ⟨0, _⟩ =>
    show win0_1.index t (0 : Fin 2) * 1024 + 1 * (y 0).val = (t.val / 4 % 4 * 1024 + (y 0).val) % 4096
    rw [e0]; omega
  | ⟨1, _⟩ =>
    show win0_1.index t (1 : Fin 2) * 1024 + 1 * (y 1).val = (t.val % 4 * 1024 + (y 1).val) % 4096
    rw [e1]; omega

/-- A block of a [1, 4096] row read through the bias window at point t: entry (0, q) is the row at column
    j·1024 + q. -/
theorem read_bblock (A : SB.Idx → EReal) (t : Fin cfg0.N) (y : S1x1024.Idx) :
    ((cfg0.win 2).blk t).view.read (Elt Ideal) A y = A (ix2 (0 : Fin 1) (posAt (t.val / 4 % 4) (y 1))) := by
  obtain ⟨-, -, -, -, e0, e1, -⟩ := block_numbers t
  have hN := point_lt t
  have hy0 : (y 0).val < 1 := (y 0).isLt
  have hy1 : (y 1).val < 1024 := (y 1).isLt
  rw [View.read_apply]
  refine congrArg A (funext fun a => Fin.ext ?_)
  match a with
  | ⟨0, _⟩ =>
    show win0_2.index t (0 : Fin 2) * 1 + 1 * (y 0).val = 0
    rw [e0]; omega
  | ⟨1, _⟩ =>
    show win0_2.index t (1 : Fin 2) * 1024 + 1 * (y 1).val = (t.val / 4 % 4 * 1024 + (y 1).val) % 4096
    rw [e1]; omega

/-- A block of an [8192, 4096] array read through the output window at point t: entry (p, q) is the array at row
    i·1024 + p, column j·1024 + q. -/
theorem read_oblock (A : SX.Idx → EReal) (t : Fin cfg0.N) (y : S1024x1024.Idx) :
    ((cfg0.win 3).blk t).view.read (Elt Ideal) A y
      = A (ix2 (rowAt (t.val / 16) (y 0)) (posAt (t.val / 4 % 4) (y 1))) := by
  obtain ⟨-, -, -, -, -, -, e0, e1⟩ := block_numbers t
  have hN := point_lt t
  have hy0 : (y 0).val < 1024 := (y 0).isLt
  have hy1 : (y 1).val < 1024 := (y 1).isLt
  rw [View.read_apply]
  refine congrArg A (funext fun a => Fin.ext ?_)
  match a with
  | ⟨0, _⟩ =>
    show win0_3.index t (0 : Fin 2) * 1024 + 1 * (y 0).val = (t.val / 16 * 1024 + (y 0).val) % 8192
    rw [e0]; omega
  | ⟨1, _⟩ =>
    show win0_3.index t (1 : Fin 2) * 1024 + 1 * (y 1).val = (t.val / 4 % 4 * 1024 + (y 1).val) % 4096
    rw [e1]; omega

/-! ## The arrays the region reads -/

variable (m : (ℓ : Loc nD τ sig) → Buf (Elt Ideal) ℓ)

/-- The three arrays the region reads, as it finds them: x : [8192, 4096], w : [4096, 4096], the bias row [1, 4096]. -/
def X (c : Dev nD) : SX.Idx → EReal := V m c main_v41
def W (c : Dev nD) : SW.Idx → EReal := V m c main_v36
def B (c : Dev nD) : SB.Idx → EReal := V m c main_v42

theorem xblock_eq (c : Dev nD) (t : Fin cfg0.N) :
    (iblk m c 0 t : Vec Ideal S1024x1024 .bf16) = ((cfg0.win 0).blk t).view.read (Elt Ideal) (X m c) := rfl
theorem wblock_eq (c : Dev nD) (t : Fin cfg0.N) :
    (iblk m c 1 t : Vec Ideal S1024x1024 .bf16) = ((cfg0.win 1).blk t).view.read (Elt Ideal) (W m c) := rfl
theorem bblock_eq (c : Dev nD) (t : Fin cfg0.N) :
    (iblk m c 2 t : Vec Ideal S1x1024 .f32) = ((cfg0.win 2).blk t).view.read (Elt Ideal) (B m c) := rfl

/-- The accumulating step at point t adds chunk k of the row-against-row sum of row i·1024 + p of x and row
    j·1024 + q of w. -/
theorem step_at_point (c : Dev nD) (t : Fin cfg0.N) (acc : Vec Ideal S1024x1024 .f32) (idx : S1024x1024.Idx) :
    k0_pay2 (F := Ideal) acc (iblk m c 0 t) (iblk m c 1 t) idx
      = acc idx + chunk (X m c) (W m c) (rowAt (t.val / 16) (idx 0)) (posAt (t.val / 4 % 4) (idx 1)) (t.val % 4) := by
  refine (step_apply acc (iblk m c 0 t) (iblk m c 1 t) idx).trans ?_
  refine congrArg (acc idx + ·) ?_
  unfold chunk
  refine Finset.sum_congr rfl fun y _ => congrArg₂ (· * ·) ?_ ?_
  · rw [xblock_eq]; exact read_xblock (X m c) t (ix2 (idx 0) y)
  · rw [wblock_eq]; exact read_wblock (W m c) t (ix2 (idx 1) y)

/-! ## The accumulator, point by point -/

/-- At a point with k = 0 the accumulator ends at chunk 0. -/
theorem acc_first_point (c : Dev nD) (t : Fin cfg0.N) (h0 : t.val % 4 = 0) (idx : S1024x1024.Idx) :
    (outsAt0 m c t.val t.isLt).2 idx
      = chunk (X m c) (W m c) (rowAt (t.val / 16) (idx 0)) (posAt (t.val / 4 % 4) (idx 1)) (t.val % 4) := by
  have h1 : ¬t.val % 4 = 3 := by omega
  rw [outsAt0_A m c t h0 h1]
  dsimp only
  refine (congrFun (CaseValues.acc_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) idx).trans ?_
  refine (step_at_point m c t (k0_pay1 (F := Ideal)) idx).trans ?_
  rw [zero_block_apply, zero_add]

/-- At a point with k > 0 the accumulator ends at what the point before left plus chunk k. -/
theorem acc_next_point (c : Dev nD) (t : Fin cfg0.N) (h0 : ¬t.val % 4 = 0) (idx : S1024x1024.Idx) :
    (outsAt0 m c t.val t.isLt).2 idx
      = (outsAt0 m c (t.val - 1) (Nat.lt_of_le_of_lt (Nat.sub_le _ _) t.isLt)).2 idx
        + chunk (X m c) (W m c) (rowAt (t.val / 16) (idx 0)) (posAt (t.val / 4 % 4) (idx 1)) (t.val % 4) := by
  by_cases h1 : t.val % 4 = 3
  · rw [outsAt0_C m c t h0 h1]
    dsimp only
    refine (congrFun (CaseValues.acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) idx).trans ?_
    exact step_at_point m c t (outsAt0 m c (t.val - 1) (Nat.lt_of_le_of_lt (Nat.sub_le _ _) t.isLt)).2 idx
  · rw [outsAt0_B m c t h0 h1]
    dsimp only
    refine (congrFun (CaseValues.acc_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) idx).trans ?_
    exact step_at_point m c t (outsAt0 m c (t.val - 1) (Nat.lt_of_le_of_lt (Nat.sub_le _ _) t.isLt)).2 idx

/-- After point n the accumulator holds the chunks 0 … n mod 4 of the row-against-row sum of its rows, added up. -/
theorem acc_at (c : Dev nD) : ∀ (n : ℕ) (h : n < cfg0.N) (idx : S1024x1024.Idx),
    (outsAt0 m c n h).2 idx
      = ∑ s ∈ Finset.range (n % 4 + 1),
          chunk (X m c) (W m c) (rowAt (n / 16) (idx 0)) (posAt (n / 4 % 4) (idx 1)) s := by
  intro n
  induction n with
  | zero =>
    intro h idx
    refine (acc_first_point m c ⟨0, h⟩ rfl idx).trans ?_
    exact (Finset.sum_range_one _).symm
  | succ n ih =>
    intro h idx
    by_cases h0 : (n + 1) % 4 = 0
    · refine (acc_first_point m c ⟨n + 1, h⟩ h0 idx).trans ?_
      show chunk (X m c) (W m c) (rowAt ((n + 1) / 16) (idx 0)) (posAt ((n + 1) / 4 % 4) (idx 1)) ((n + 1) % 4) = _
      rw [h0]
      exact (Finset.sum_range_one _).symm
    · refine (acc_next_point m c ⟨n + 1, h⟩ h0 idx).trans ?_
      show (outsAt0 m c n (Nat.lt_of_succ_lt h)).2 idx
          + chunk (X m c) (W m c) (rowAt ((n + 1) / 16) (idx 0)) (posAt ((n + 1) / 4 % 4) (idx 1)) ((n + 1) % 4) = _
      rw [ih (Nat.lt_of_succ_lt h) idx]
      have e1 : n % 4 + 1 = (n + 1) % 4 := by omega
      have e2 : n / 16 = (n + 1) / 16 := by omega
      have e3 : n / 4 % 4 = (n + 1) / 4 % 4 := by omega
      rw [e1, e2, e3]
      exact (Finset.sum_range_succ _ _).symm

/-! ## The output block, and the output array -/

/-- At a point with k = 3 the output block is the accumulator plus the bias entry of its column. -/
theorem out_at (c : Dev nD) (t : Fin cfg0.N) (h3 : t.val % 4 = 3) (y : S1024x1024.Idx) :
    (outsAt0 m c t.val t.isLt).1 y
      = (outsAt0 m c t.val t.isLt).2 y + B m c (ix2 (0 : Fin 1) (posAt (t.val / 4 % 4) (y 1))) := by
  have h0 : ¬t.val % 4 = 0 := by omega
  rw [outsAt0_C m c t h0 h3]
  dsimp only
  refine (congrFun (CaseValues.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2) y).trans ?_
  refine (bias_apply (k0_pay2 (F := Ideal) (outsAt0 m c (t.val - 1) (Nat.lt_of_le_of_lt (Nat.sub_le _ _) t.isLt)).2 (iblk m c 0 t) (iblk m c 1 t)) (iblk m c 2 t) y).trans ?_
  refine congrArg₂ (· + ·) (congrFun (CaseValues.acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2).symm y) ?_
  rw [bblock_eq]
  exact read_bblock (B m c) t (ix2 (0 : Fin 1) (y 1))

/-- What a point with k = 3 writes back is its block of the dense layer x · wᵀ + b of the three arrays. -/
theorem flushed_eq (c : Dev nD) (t : Fin cfg0.N) (hf : (cfg0.win 3).flush t = true) :
    (dats m 0 c).flushed 3 t = ((cfg0.win 3).blk t).view.read (Elt Ideal) (layer (X m c) (W m c) (B m c)) := by
  have h3 : t.val % 4 = 3 := (flush0_3 t).mp hf
  show (cfg0.win 3).cut (grid0.coords t) ((dats m 0 c).after 3 t) = _
  rw [after0_3]
  funext y
  refine Eq.trans ?_ (read_oblock (layer (X m c) (W m c) (B m c)) t y).symm
  show (outsAt0 m c t.val t.isLt).1 y = _
  rw [out_at m c t h3 y, acc_at m c t.val t.isLt y, h3]
  exact congrArg (· + B m c (ix2 (0 : Fin 1) (posAt (t.val / 4 % 4) (y 1))))
    (sum_chunks (X m c) (W m c) (rowAt (t.val / 16) (y 0)) (posAt (t.val / 4 % 4) (y 1)))

/-- An index of the output array lies in point t's block iff each coordinate lies in the block's range. -/
theorem mem_oblock (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v43).slice (win0_3.rect t)).set ↔ _
  rw [View.set_slice_whole, Rect.mem_set_unit]
  exact Iff.rfl

/-- Every index (r, q) of the output array lies in the block written back at the point i = r / 1024,
    j = q / 1024, k = 3. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨(i 0).val / 1024 * 16 + (i 1).val / 1024 * 4 + 3, by rw [hN]; omega⟩
  have ht : t.val = (i 0).val / 1024 * 16 + (i 1).val / 1024 * 4 + 3 := rfl
  obtain ⟨-, -, -, -, -, -, e0, e1⟩ := block_numbers t
  refine ⟨t, (flush0_3 t).mpr (by rw [ht]; omega), ?_⟩
  rw [mem_oblock]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1, ht]; omega

/-- The output array ends holding the dense layer of the three arrays the region read. -/
theorem final (c : Dev nD) : (dats m 0 c).arrAt 3 cfg0.N = layer (X m c) (W m c) (B m c) :=
  (dats m 0 c).arrAt_eq_of_cover 3 (layer (X m c) (W m c) (B m c)) (fun t hf => flushed_eq m c t hf) covered

end Cert.KernelIdeal.Blocks

end
-- ==== Proof.HostPrefix.lean ====
/-
  What the kernel's host program hands to the blocked matrix product.

  Before the product both programs run the same quantize-and-dequantize chain on their inputs: the weight matrix is
  scaled per row, rounded, clipped and rescaled; the activations, flattened to [8192, 4096], are scaled and shifted per
  row, rounded, clipped and mapped back. The kernel's program then narrows the two dequantized matrices to bf16 and
  reshapes the bias vector to a row. Here the three arrays the product reads are identified, for any float
  instance, with the reference program's own intermediate values: the dequantized activations and weights (each
  narrowed to bf16) and the reshaped bias. Nothing about the chain is used except that both programs spell it
  with the same operations in the same order.
-/
import proofs.«129929_j20203526161177_1_alg».proof.Proof.Gen.KernelIdeal.Frame
import proofs.«129929_j20203526161177_1_alg».proof.Proof.Gen.ReferenceIdeal.Read
import Idealize.ShloMosaic.Lib.StableHlo.Run
import Idealize.ShloMosaic.Lib.Pipeline.Value

noncomputable section

open Idealize.ShloMosaic Idealize.ShloMosaic.TcCoe Idealize.SL.Sem Idealize.ShloMosaic.StableHlo

namespace Cert.KernelIdeal.HostPrefix

open Cert.KernelIdeal Cert.KernelIdeal.Gen

variable {F : FTy → Type} [FloatOps F]
variable (m : (ℓ : Loc nD τ sig) → Buf (Elt F) ℓ)

set_option maxHeartbeats 32000000 in
/-- The bias row the product reads is the bias vector reshaped to [1, 4096]. -/
theorem bias_row (c : Dev nD) : V m c main_v42
    = shapeCast S1x4096 (m ((c.tc : Thread nD τ).loc main_arg2)) shapeCasts_S4096_S1x4096 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 32000000 in
/-- The right operand the product reads is the reference's dequantized weight matrix, narrowed to bf16. -/
theorem weights (c : Dev nD) : V m c main_v36
    = truncf .bf16 (Cert.ReferenceIdeal.Read.val_main_v35 (F := F) (m ((c.tc : Thread nD τ).loc main_arg1))) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 32000000 in
/-- The left operand the product reads is the reference's dequantized activation matrix, narrowed to bf16. -/
theorem activations (c : Dev nD) : V m c main_v41
    = truncf .bf16 (Cert.ReferenceIdeal.Read.val_main_v39 (F := F) (m ((c.tc : Thread nD τ).loc main_arg0))) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

end Cert.KernelIdeal.HostPrefix

end
-- ==== Proof.KernelResult.lean ====
/-
  The kernel's program, run: its result is the dense layer of the reference's own dequantized arrays, reshaped.

  The output array of the blocked product ends holding x · wᵀ + b of the three arrays the product read; the last
  host operation reshapes that [8192, 4096] array to [4, 2048, 4096]. The three arrays are the reference's
  dequantized activations and weights (narrowed to bf16, which at the ideal values changes nothing) and the
  bias vector reshaped to a row.
-/
import proofs.«129929_j20203526161177_1_alg».proof.Proof.KernelBlocks
import proofs.«129929_j20203526161177_1_alg».proof.Proof.HostPrefix
import Idealize.ShloMosaic.Lib.StableHlo.Run

noncomputable section

open Idealize.ShloMosaic Idealize.ShloMosaic.TcCoe Idealize.SL.Sem Idealize.ShloMosaic.StableHlo Idealize.ShloMosaic.ValueIdx

namespace Cert.KernelIdeal.Result

open Cert.KernelIdeal Cert.KernelIdeal.Gen Cert.KernelIdeal.Blocks Cert.BlockedProduct

variable (m : (ℓ : Loc nD τ sig) → Buf (Elt Ideal) ℓ) (ρ : Dev nD → PrngReg)

/-- The program's result: the reshape of the layer of the three arrays the product read. -/
def result (c : Dev nD) : Buf (Elt Ideal) ((c.tc : Thread nD τ).loc main_v44) :=
  shapeCast S4x2048x4096 (layer (X m c) (W m c) (B m c)) shapeCasts_S8192x4096_S4x2048x4096

/-- When the region ends, the product's output array holds the layer of the three arrays it read. -/
theorem region_array (c : Dev nD) :
    Pipeline.withArrays (cfgs 0).spec c (V0 m c) (fun w => (dats m 0 c).arrAt w (cfgs 0).N)
      (Proc.devRef .tc main_v43) = layer (X m c) (W m c) (B m c) :=
  (Pipeline.withArrays_arr spec0 launch0.win.arr_inj c (V0 m c) (fun w => (dats m 0 c).arrAt w cfg0.N) 3).trans (final m c)

/-- After the region, the host's reshape of the product's output array is the result. -/
theorem tail_result (c : Dev nD) :
    Pipeline.afterTail₀ cfgs (dats m) 0 (V0 m) [hostOps1] c main_v44 = result m c := by
  unfold Pipeline.afterTail₀
  show StableHlo.after hostOps1 _ (Proc.devRef .tc main_v44) = _
  after_results
  rw [region_array m c]
  unfold result
  rfl

/-- Every weakly fair execution of the kernel's program at the ideal values terminates with the result at
    `result` and the three arguments unchanged. -/
theorem run : θ_run defs (onTc (τ := τ) (main (F := Ideal))) ⟨m, fun _ => 0, ρ⟩ fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v44 (Pipeline.mem_restRefs_of main_v44 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The left operand of the product is the reference's dequantized activation matrix: narrowing to bf16 is the
    identity at the ideal values. -/
theorem X_eq (c : Dev nD) :
    X m c = Cert.ReferenceIdeal.Read.val_main_v39 (F := Ideal) (m ((c.tc : Thread nD τ).loc main_arg0)) := by
  funext i
  exact (congrFun (HostPrefix.activations (F := Ideal) m c) i).trans (truncf_apply _ _ i)

/-- The right operand of the product is the reference's dequantized weight matrix. -/
theorem W_eq (c : Dev nD) :
    W m c = Cert.ReferenceIdeal.Read.val_main_v35 (F := Ideal) (m ((c.tc : Thread nD τ).loc main_arg1)) := by
  funext i
  exact (congrFun (HostPrefix.weights (F := Ideal) m c) i).trans (truncf_apply _ _ i)

/-- The bias row of the product is the bias vector reshaped to [1, 4096]. -/
theorem B_eq (c : Dev nD) :
    B m c = shapeCast S1x4096 (m ((c.tc : Thread nD τ).loc main_arg2)) shapeCasts_S4096_S1x4096 :=
  HostPrefix.bias_row (F := Ideal) m c

end Cert.KernelIdeal.Result

end
-- ==== Proof.ReferenceLayer.lean ====
/-
  The reference program's product-and-bias stage is the dense layer x · wᵀ + b.

  After the shared quantize-and-dequantize chain the reference contracts the dequantized activations [8192, 4096]
  with the dequantized weights [4096, 4096] along the second axis of both, and adds the bias vector broadcast along
  the rows. At the ideal values the contraction is the finite sum over the 4096 positions, so entry (r, j) is
  (∑ k, x (r, k) · w (j, k)) + b j: the layer of the three arrays, the bias read as the row [1, 4096].
-/
import proofs.«129929_j20203526161177_1_alg».proof.Proof.Gen.ReferenceIdeal.Read
import proofs.«129929_j20203526161177_1_alg».proof.Proof.BlockedProduct
import Idealize.ShloMosaic.Lib.Pipeline.Value
import Idealize.ShloMosaic.Lib.ValueIdx

noncomputable section

open Idealize.ShloMosaic Idealize.ShloMosaic.ValueIdx

namespace Cert.ReferenceIdeal.Layer

open Cert.ReferenceIdeal Cert.ReferenceIdeal.Read Cert.BlockedProduct

/-- The reference's sum-plus-bias stage is the layer of its dequantized activations, its dequantized weights and
    its bias vector reshaped to a row (whichever evidence the reshape is stated with). -/
theorem stage_is_layer (x0 : (⟨S4x2048x4096, .f32⟩ : BufTy).Contents (Elt Ideal))
    (x1 : (⟨S4096x4096, .f32⟩ : BufTy).Contents (Elt Ideal)) (x2 : (⟨S4096, .f32⟩ : BufTy).Contents (Elt Ideal))
    (h : S4096.ShapeCasts S1x4096) :
    val_main_v43 (F := Ideal) x0 x1 x2
      = layer (val_main_v39 (F := Ideal) x0) (val_main_v35 (F := Ideal) x1) (shapeCast S1x4096 x2 h) := by
  funext i
  have el : ∀ k : Fin 4096, lidx_main_v40 i k = ix2 (i 0) k := fun k => funext fun a => by
    match a with
    | ⟨0, _⟩ => rfl
    | ⟨1, _⟩ => rfl
  have er : ∀ k : Fin 4096, ridx_main_v40 i k = ix2 (i 1) k := fun k => funext fun a => by
    match a with
    | ⟨0, _⟩ => rfl
    | ⟨1, _⟩ => rfl
  have eb : idx_main_v41 (idx_main_v42 i) = ix1 (i 1) := funext fun a => by
    match a with
    | ⟨0, _⟩ => rfl
  have hb : shapeCast S1x4096 x2 h (ix2 (0 : Fin 1) (i 1)) = x2 (ix1 (i 1)) :=
    shapeCast_apply x2 h (ix2 (0 : Fin 1) (i 1)) (ix1 (i 1)) (by
      rw [Shape.rowMajor_val_one, Shape.rowMajor_val_two]
      show (i 1).val = 0 * 4096 + (i 1).val
      omega)
  rw [val_main_v43_apply, val_main_v40_apply, val_main_v42_apply, val_main_v41_apply, eb]
  unfold layer
  rw [hb]
  simp only [el, er]
  rfl

end Cert.ReferenceIdeal.Layer

end
-- ==== Proof.lean ====
/-
  A dynamically quantized linear layer: the blocked kernel against the plain reference, at the ideal values.

  Both programs quantize the weight matrix W [4096, 4096] per row and the flattened activations X [8192, 4096] per
  row to the int8 range, map them back to floats, and compute Y = Xdq · Wdqᵀ + b, reshaped to [4, 2048, 4096].
  The reference contracts the whole 4096-long axis at once. The kernel narrows the two matrices to bf16 and runs a
  grid (i, j, k) of 8 · 4 · 4 points: at each point it adds the product of the (i, k) block of Xdq with the transposed
  (j, k) block of Wdq into an accumulator that is zeroed at k = 0, and at k = 3 writes the accumulator plus the bias
  block to output block (i, j).

  At the ideal values every float is an extended real, every operation is exact and a change of float format is the
  identity. Entry (r, q) of the kernel's output is then ((((0 + c₀) + c₁) + c₂) + c₃) + b q, where c_k is the part
  of ∑ k, Xdq (r, k) · Wdq (q, k) over the k-th 1024 contraction positions; the reference's entry is the whole sum
  plus b q. A finite sum on the extended reals is a sum in a commutative monoid, so the two agree with no
  assumption on the entries: the finiteness of the inputs is never used. The quantization chain is the same sequence
  of operations in both programs and is never opened.

  The modules: BlockedProduct (the layer and its four chunks), CaseValues (what one grid point leaves, as the body's
  arithmetic of the blocks it read), KernelBlocks (the accumulator point by point, the output blocks, the output
  array), HostPrefix (the arrays the product reads are the reference's dequantized arrays), KernelResult (the kernel
  program's run), ReferenceLayer (the reference's last stages are the layer). The frames of the two kernel programs
  are the generated ones; the reference's frame is its generated run with the result dropped; the idealization
  rewrote nothing, so there is nothing to preserve.
-/
import proofs.«129929_j20203526161177_1_alg».proof.Defs
import proofs.«129929_j20203526161177_1_alg».proof.Proof.Gen.Kernel
import proofs.«129929_j20203526161177_1_alg».proof.Proof.Gen.Kernel.Frame
import proofs.«129929_j20203526161177_1_alg».proof.Proof.Gen.KernelIdeal
import proofs.«129929_j20203526161177_1_alg».proof.Proof.Gen.KernelIdeal.Frame
import proofs.«129929_j20203526161177_1_alg».proof.Proof.Gen.ReferenceIdeal
import proofs.«129929_j20203526161177_1_alg».proof.Proof.Gen.ReferenceIdeal.Run
import proofs.«129929_j20203526161177_1_alg».proof.Proof.Gen.ReferenceIdeal.Read
import proofs.«129929_j20203526161177_1_alg».proof.Proof.Gen.Pre_finite_inputs
import proofs.«129929_j20203526161177_1_alg».proof.Proof.KernelResult
import proofs.«129929_j20203526161177_1_alg».proof.Proof.ReferenceLayer
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program at the ideal values. -/
theorem frame_kernel_ideal : Cert.frame_KernelIdeal := fun m ρ _ => Cert.KernelIdeal.Gen.frame m ρ

/-- The reference program runs and keeps its arguments: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reshaped layer of the same dequantized
    arrays: the kernel by its blocked sum, the reference by its whole sum. -/
theorem algebraic : Cert.algebraic_KernelIdeal_ReferenceIdeal := by
  intro m ρ m' ρ' _ hagree
  refine ⟨Cert.KernelIdeal.Result.result m, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2]
  unfold Cert.KernelIdeal.Result.result
  rw [Cert.KernelIdeal.Result.X_eq, Cert.KernelIdeal.Result.W_eq, Cert.KernelIdeal.Result.B_eq]
  unfold Cert.ReferenceIdeal.Read.val_main_v44
  rw [Cert.ReferenceIdeal.Layer.stage_is_layer _ _ _ Cert.KernelIdeal.Facts₀.shapeCasts_S4096_S1x4096]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
